-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S19x10x256 : Shape := ⟨3, ![19, 10, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S19x10x256 : S_.BroadcastsInDim S19x10x256 (![] : Fin 0 → Fin S19x10x256.rank)
  reducesTo_S19x10x256_S_d0_1_2 : S19x10x256.ReducesTo [0, 1, 2] S_

variable [Facts]

def fn_part1 {F : FTy → Type} [FloatOps F] (main_v13 : IVec S_ 1) (main_v16 : IVec S19x10x256 1) : IVec S_ 1 :=
  let main_c_5 : IVec S_ 1 := constantI S_ 1 1#1
  let main_v17 : IVec S_ 1 := (fun x v => Host.reduce IntOp.andi x v reducesTo_S19x10x256_S_d0_1_2 h_S_) main_v16 main_c_5
  let main_v18 : IVec S_ 1 := andi main_v13 main_v17
  main_v18

def fn {F : FTy → Type} [FloatOps F] (main_arg0 : FVec F S262144x256 .f32) (main_arg1 : FVec F S262144x256 .f32) (main_arg2 : FVec F S19x10x256 .f32) (main_arg3 : FVec F S19x10x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S19x10x256 .f32 := Host.absf main_arg2
  let main_cst_2 : FVec F S_ .f32 := constant S_ .f32 0x7F800000#32
  let main_v10 : FVec F S19x10x256 .f32 := broadcastInDim S19x10x256 ![] bcast_S_S19x10x256 main_cst_2
  let main_v11 : IVec S19x10x256 1 := cmpf .olt main_v9 main_v10
  let main_c_3 : IVec S_ 1 := constantI S_ 1 1#1
  let main_v12 : IVec S_ 1 := (fun x v => Host.reduce IntOp.andi x v reducesTo_S19x10x256_S_d0_1_2 h_S_) main_v11 main_c_3
  let main_v13 : IVec S_ 1 := andi main_v8 main_v12
  let main_v14 : FVec F S19x10x256 .f32 := Host.absf main_arg3
  let main_cst_4 : FVec F S_ .f32 := constant S_ .f32 0x7F800000#32
  let main_v15 : FVec F S19x10x256 .f32 := broadcastInDim S19x10x256 ![] bcast_S_S19x10x256 main_cst_4
  let main_v16 : IVec S19x10x256 1 := cmpf .olt main_v14 main_v15
  fn_part1 (F := F) main_v13 main_v16
-- ==== Kernel.lean ====
abbrev S262144x256 : Shape := ⟨2, ![262144, 256]⟩
abbrev S19x10x256 : Shape := ⟨3, ![19, 10, 256]⟩
abbrev S190x256 : Shape := ⟨2, ![190, 256]⟩
abbrev S256x190 : Shape := ⟨2, ![256, 190]⟩
abbrev S_ : Shape := ⟨0, ![]⟩
abbrev S190 : Shape := ⟨1, ![190]⟩
abbrev S1x190 : Shape := ⟨2, ![1, 190]⟩
abbrev S262144x190 : Shape := ⟨2, ![262144, 190]⟩
abbrev S4096x256 : Shape := ⟨2, ![4096, 256]⟩
abbrev S4096x190 : Shape := ⟨2, ![4096, 190]⟩
abbrev S4096 : Shape := ⟨1, ![4096]⟩
abbrev S4096x1 : Shape := ⟨2, ![4096, 1]⟩
abbrev S262144x19x10 : Shape := ⟨3, ![262144, 19, 10]⟩

abbrev nBuf : Space → Nat
  | .hbm => 17
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S19x10x256, .f32⟩
  | .hbm, ⟨3, _⟩ => ⟨S19x10x256, .f32⟩
  | .hbm, ⟨4, _⟩ => ⟨S190x256, .f32⟩
  | .hbm, ⟨5, _⟩ => ⟨S256x190, .f32⟩
  | .hbm, ⟨6, _⟩ => ⟨S256x190, .bf16⟩
  | .hbm, ⟨7, _⟩ => ⟨S190x256, .f32⟩
  | .hbm, ⟨8, _⟩ => ⟨S190x256, .f32⟩
  | .hbm, ⟨9, _⟩ => ⟨S256x190, .f32⟩
  | .hbm, ⟨10, _⟩ => ⟨S256x190, .bf16⟩
  | .hbm, ⟨11, _⟩ => ⟨S190x256, .f32⟩
  | .hbm, ⟨12, _⟩ => ⟨S_, .f32⟩
  | .hbm, ⟨13, _⟩ => ⟨S190, .f32⟩
  | .hbm, ⟨14, _⟩ => ⟨S1x190, .f32⟩
  | .hbm, ⟨15, _⟩ => ⟨S262144x190, .f32⟩
  | .hbm, ⟨16, _⟩ => ⟨S262144x19x10, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x190, .bf16⟩
  | .local _ .vmem, ⟨5, _⟩ => ⟨S256x190, .bf16⟩
  | .local _ .vmem, ⟨6, _⟩ => ⟨S1x190, .f32⟩
  | .local _ .vmem, ⟨7, _⟩ => ⟨S4096x190, .f32⟩
  | .local _ .vmem, ⟨8, _⟩ => ⟨S4096x190, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x190 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x190 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x190 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x190 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S19x10x256_S190x256 : S19x10x256.ShapeCasts S190x256
  transposes_S190x256_S256x190_1_0 : S190x256.Transposes [1, 0] S256x190
  bitsLt_bf16_f32 : FTy.bits .bf16 < FTy.bits .f32
  reducesTo_S190x256_S190_d1 : S190x256.ReducesTo [1] S190
  h_S_ : 0 < S_.numel
  shapeCasts_S190_S1x190 : S190.ShapeCasts S1x190
  inb_S4096x256_S4096x256_0_0 : ∀ a, (![0, 0] : Fin 2 → Nat) a + S4096x256.size a ≤ S4096x256.size a
  h_S4096x256 : 0 < S4096x256.numel
  inb_S256x190_S256x190_0_0 : ∀ a, (![0, 0] : Fin 2 → Nat) a + S256x190.size a ≤ S256x190.size a
  h_S256x190 : 0 < S256x190.numel
  shapeCasts_S256x190_S256x190 : S256x190.ShapeCasts S256x190
  inb_S1x190_S1x190_0_0 : ∀ a, (![0, 0] : Fin 2 → Nat) a + S1x190.size a ≤ S1x190.size a
  h_S1x190 : 0 < S1x190.numel
  shapeCasts_S1x190_S1x190 : S1x190.ShapeCasts S1x190
  reduces_S4096x256_S4096 : S4096x256.Reduces [1] S4096
  shapeCasts_S4096_S4096x1 : S4096.ShapeCasts S4096x1
  broadcasts_S4096x1_S4096x190 : S4096x1.Broadcasts S4096x190
  broadcasts_S1x190_S4096x190 : S1x190.Broadcasts S4096x190
  inb_S4096x190_S4096x190_0_0 : ∀ a, (![0, 0] : Fin 2 → Nat) a + S4096x190.size a ≤ S4096x190.size a
  h_S4096x190 : 0 < S4096x190.numel
  shapeCasts_S262144x190_S262144x19x10 : S262144x190.ShapeCasts S262144x19x10
  dot_S4096x256_S256x190_S4096x190_1_0_0_1_n_n_wf : DotDims.WF S4096x256 S256x190 S4096x190 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x190.size a ≤ S256x190.size a
  hwx0_2 : ∀ i : grid0.Coords, EltTy.bits .bf16 = 32 ∨ (Rect.block (s := S256x190) S256x190.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x190.size a ≤ S256x190.size a
  hwx0_3 : ∀ i : grid0.Coords, EltTy.bits .bf16 = 32 ∨ (Rect.block (s := S256x190) S256x190.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x190.size a ≤ S1x190.size a
  hwx0_4 : ∀ i : grid0.Coords, EltTy.bits .f32 = 32 ∨ (Rect.block (s := S1x190) S1x190.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x190.size a ≤ S262144x190.size a
  hwx0_5 : ∀ i : grid0.Coords, EltTy.bits .f32 = 32 ∨ (Rect.block (s := S262144x190) S4096x190.size (cc0_transform_5 i) (hinb0_5 i)).WholeWords (EltTy.packing .f32)

variable [Facts₀]

def dot_S4096x256_S256x190_S4096x190_1_0_0_1_n_n : DotDims S4096x256 S256x190 S4096x190 where
  lhsContracting := [1]
  rhsContracting := [0]
  lhsNonContracting := [0]
  rhsNonContracting := [1]
  lhsBatch := []
  rhsBatch := []
  wf := dot_S4096x256_S256x190_S4096x190_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x190.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x190.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x190.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4096x190.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x256 : Shape := ⟨2, ![262144, 256]⟩
abbrev S19x10x256 : Shape := ⟨3, ![19, 10, 256]⟩
abbrev S262144x19x10 : Shape := ⟨3, ![262144, 19, 10]⟩
abbrev S_ : Shape := ⟨0, ![]⟩
abbrev S262144 : Shape := ⟨1, ![262144]⟩
abbrev S262144x1x1 : Shape := ⟨3, ![262144, 1, 1]⟩
abbrev S19x10 : Shape := ⟨2, ![19, 10]⟩
abbrev S1x19x10 : Shape := ⟨3, ![1, 19, 10]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S19x10x256, .f32⟩
  | .hbm, ⟨3, _⟩ => ⟨S19x10x256, .f32⟩
  | .hbm, ⟨4, _⟩ => ⟨S262144x19x10, .f32⟩
  | .hbm, ⟨5, _⟩ => ⟨S262144x256, .f32⟩
  | .hbm, ⟨6, _⟩ => ⟨S19x10x256, .f32⟩
  | .hbm, ⟨7, _⟩ => ⟨S262144x19x10, .f32⟩
  | .hbm, ⟨8, _⟩ => ⟨S_, .f32⟩
  | .hbm, ⟨9, _⟩ => ⟨S262144x19x10, .f32⟩
  | .hbm, ⟨10, _⟩ => ⟨S262144x19x10, .f32⟩
  | .hbm, ⟨11, _⟩ => ⟨S_, .f32⟩
  | .hbm, ⟨12, _⟩ => ⟨S262144x19x10, .f32⟩
  | .hbm, ⟨13, _⟩ => ⟨S262144x19x10, .f32⟩
  | .hbm, ⟨14, _⟩ => ⟨S_, .f32⟩
  | .hbm, ⟨15, _⟩ => ⟨S262144, .f32⟩
  | .hbm, ⟨16, _⟩ => ⟨S262144x1x1, .f32⟩
  | .hbm, ⟨17, _⟩ => ⟨S_, .f32⟩
  | .hbm, ⟨18, _⟩ => ⟨S19x10, .f32⟩
  | .hbm, ⟨19, _⟩ => ⟨S1x19x10, .f32⟩
  | .hbm, ⟨20, _⟩ => ⟨S262144x19x10, .f32⟩
  | .hbm, ⟨21, _⟩ => ⟨S262144x19x10, .f32⟩
  | .hbm, ⟨22, _⟩ => ⟨S262144x19x10, .f32⟩
  | .hbm, ⟨23, _⟩ => ⟨S_, .f32⟩
  | .hbm, ⟨24, _⟩ => ⟨S262144x19x10, .f32⟩
  | .hbm, ⟨25, _⟩ => ⟨S262144x19x10, .f32⟩
  | .hbm, ⟨26, _⟩ => ⟨S262144x19x10, .f32⟩
  | .hbm, ⟨27, _⟩ => ⟨S_, .f32⟩
  | .hbm, ⟨28, _⟩ => ⟨S262144x19x10, .f32⟩
  | .hbm, ⟨29, _⟩ => ⟨S262144x19x10, .f32⟩
  | .hbm, ⟨30, _⟩ => ⟨S262144x19x10, .f32⟩
  | .hbm, ⟨31, _⟩ => ⟨S262144x19x10, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S262144x19x10 : S_.BroadcastsInDim S262144x19x10 (![] : Fin 0 → Fin S262144x19x10.rank)
  reducesTo_S262144x256_S262144_d1 : S262144x256.ReducesTo [1] S262144
  h_S_ : 0 < S_.numel
  bcast_S262144_S262144x1x1_0 : S262144.BroadcastsInDim S262144x1x1 (![0] : Fin 1 → Fin S262144x1x1.rank)
  reducesTo_S19x10x256_S19x10_d2 : S19x10x256.ReducesTo [2] S19x10
  bcast_S19x10_S1x19x10_1_2 : S19x10.BroadcastsInDim S1x19x10 (![1, 2] : Fin 2 → Fin S1x19x10.rank)
  bcast_S262144x1x1_S262144x19x10_0_1_2 : S262144x1x1.BroadcastsInDim S262144x19x10 (![0, 1, 2] : Fin 3 → Fin S262144x19x10.rank)
  bcast_S1x19x10_S262144x19x10_0_1_2 : S1x19x10.BroadcastsInDim S262144x19x10 (![0, 1, 2] : Fin 3 → Fin S262144x19x10.rank)
  dot_S262144x256_S19x10x256_S262144x19x10_1_2_0_01_n_n_wf : DotDims.WF S262144x256 S19x10x256 S262144x19x10 [1] [2] [0] [0, 1] [] []

variable [Facts₀]

def dot_S262144x256_S19x10x256_S262144x19x10_1_2_0_01_n_n : DotDims S262144x256 S19x10x256 S262144x19x10 where
  lhsContracting := [1]
  rhsContracting := [2]
  lhsNonContracting := [0]
  rhsNonContracting := [0, 1]
  lhsBatch := []
  rhsBatch := []
  wf := dot_S262144x256_S19x10x256_S262144x19x10_1_2_0_01_n_n_wf

class Facts : Prop extends Facts₀ where

variable [Facts]
-- ==== Proof.NegDist.lean ====
/-
  The function both programs compute, index by index, on the extended reals.

  For a point `n` (a row of `x` and of its variances `xv`, 256 entries each) and a prototype `(c, m)` (a row of the
  means `p` and of the variances `pv`), the similarity is the negated squared distance

    -( (2 - 2 · ⟨x_n, p_cm⟩) + (1/256) · ((Σ_k xv_n,k + Σ_k pv_cm,k) - 2 · Σ_k √xv_n,k · √pv_cm,k) ).

  The constants are kept as the float words the programs print (2.0 and 1/256 = 2⁻⁸): the same word stands on both
  sides, so it is never evaluated. No program is imported here.
-/
import Idealize.ShloMosaic.PureOps.Ideal
import Idealize.ShloMosaic.Lib.ValueIdx

noncomputable section

open scoped BigOperators

namespace Cert.NegDist

open Idealize.ShloMosaic Idealize.ShloMosaic.ValueIdx

/-- The word of 2.0. -/
abbrev two : EReal := Ideal.ofBits .f32 0x40000000#32
/-- The word of 1/256. -/
abbrev lam : EReal := Ideal.ofBits .f32 0x3B800000#32

/-- The inner product of row `n` of `x` with row `(c, m)` of `p`. -/
def inner (x : (⟨2, ![262144, 256]⟩ : Shape).Idx → EReal) (p : (⟨3, ![19, 10, 256]⟩ : Shape).Idx → EReal)
    (n : Fin 262144) (c : Fin 19) (m : Fin 10) : EReal :=
  ∑ k : Fin 256, x (ix2 n k) * p (ix3 c m k)

/-- The sum of row `n` of a point array. -/
def rowSum (xv : (⟨2, ![262144, 256]⟩ : Shape).Idx → EReal) (n : Fin 262144) : EReal :=
  ∑ k : Fin 256, xv (ix2 n k)

/-- The sum of row `(c, m)` of a prototype array. -/
def protoSum (pv : (⟨3, ![19, 10, 256]⟩ : Shape).Idx → EReal) (c : Fin 19) (m : Fin 10) : EReal :=
  ∑ k : Fin 256, pv (ix3 c m k)

/-- The cross term: the inner product of the square roots of the two variance rows. -/
def cross (xv : (⟨2, ![262144, 256]⟩ : Shape).Idx → EReal) (pv : (⟨3, ![19, 10, 256]⟩ : Shape).Idx → EReal)
    (n : Fin 262144) (c : Fin 19) (m : Fin 10) : EReal :=
  ∑ k : Fin 256, Ideal.sqrt (xv (ix2 n k)) * Ideal.sqrt (pv (ix3 c m k))

/-- The negated distance between point `n` and prototype `(c, m)`. -/
def negDist (x xv : (⟨2, ![262144, 256]⟩ : Shape).Idx → EReal) (p pv : (⟨3, ![19, 10, 256]⟩ : Shape).Idx → EReal)
    (n : Fin 262144) (c : Fin 19) (m : Fin 10) : EReal :=
  -((two - two * inner x p n c m) + lam * ((rowSum xv n + protoSum pv c m) - two * cross xv pv n c m))

/-- The class a flat column `j < 190` names: `j / 10`. -/
def clsOf (j : Fin 190) : Fin 19 := ⟨j.val / 10, by have := j.isLt; omega⟩
/-- The prototype within its class a flat column names: `j % 10`. -/
def protoOf (j : Fin 190) : Fin 10 := ⟨j.val % 10, Nat.mod_lt _ (by decide)⟩
/-- The flat column of prototype `(c, m)`: `10 c + m`. -/
def colOf (c : Fin 19) (m : Fin 10) : Fin 190 := ⟨c.val * 10 + m.val, by have := c.isLt; have := m.isLt; omega⟩

theorem clsOf_colOf (c : Fin 19) (m : Fin 10) : clsOf (colOf c m) = c :=
  Fin.ext (by show (c.val * 10 + m.val) / 10 = c.val; have := m.isLt; omega)
theorem protoOf_colOf (c : Fin 19) (m : Fin 10) : protoOf (colOf c m) = m :=
  Fin.ext (by show (c.val * 10 + m.val) % 10 = m.val; have := m.isLt; omega)

/-- The result with the prototypes laid flat, [262144, 190]: column `j` is prototype `(j / 10, j % 10)`. -/
def negDistFlat (x xv : (⟨2, ![262144, 256]⟩ : Shape).Idx → EReal) (p pv : (⟨3, ![19, 10, 256]⟩ : Shape).Idx → EReal) :
    (⟨2, ![262144, 190]⟩ : Shape).Idx → EReal :=
  fun i => negDist x xv p pv (i 0) (clsOf (i 1)) (protoOf (i 1))

/-- The whole result array [262144, 19, 10]. -/
def negDistArr (x xv : (⟨2, ![262144, 256]⟩ : Shape).Idx → EReal) (p pv : (⟨3, ![19, 10, 256]⟩ : Shape).Idx → EReal) :
    (⟨3, ![262144, 19, 10]⟩ : Shape).Idx → EReal :=
  fun i => negDist x xv p pv (i 0) (i 1) (i 2)

end Cert.NegDist

end
-- ==== Proof.RefNegDist.lean ====
/-
  The reference's result, read one operation at a time, is the negated distance at every index: its two
  contractions over the last axis are the inner product and the cross term, its two row sums start from the
  word of zero, which adds nothing, and its final negation is the negation.
-/
import proofs.«142269_j7799660610230_1_alg».proof.Proof.Gen.ReferenceIdeal.Read
import proofs.«142269_j7799660610230_1_alg».proof.Proof.NegDist

noncomputable section

open scoped BigOperators

namespace Cert.ReferenceIdeal.RefValue

open Cert.ReferenceIdeal Cert.ReferenceIdeal.Read Cert.NegDist
open Idealize.ShloMosaic Idealize.ShloMosaic.ValueIdx

/-- The reference's last stage at `(n, c, m)` is the negated distance. -/
theorem stage_apply (x0 x1 : (⟨S262144x256, .f32⟩ : BufTy).Contents (Elt Ideal))
    (x2 x3 : (⟨S19x10x256, .f32⟩ : BufTy).Contents (Elt Ideal)) (n : Fin 262144) (c : Fin 19) (m : Fin 10) :
    val_main_v21 (F := Ideal) x0 x1 x2 x3 (ix3 n c m) = negDist x0 x1 x2 x3 n c m := by
  have hl0 : ∀ k, lidx_main_v0 (ix3 n c m) k = ix2 n k := fun k =>
    funext fun a => by match a with | ⟨0, _⟩ => rfl | ⟨1, _⟩ => rfl
  have hr0 : ∀ k, ridx_main_v0 (ix3 n c m) k = ix3 c m k := fun k =>
    funext fun a => by match a with | ⟨0, _⟩ => rfl | ⟨1, _⟩ => rfl | ⟨2, _⟩ => rfl
  have hl3 : ∀ k, lidx_main_v3 (ix3 n c m) k = ix2 n k := fun k =>
    funext fun a => by match a with | ⟨0, _⟩ => rfl | ⟨1, _⟩ => rfl
  have hr3 : ∀ k, ridx_main_v3 (ix3 n c m) k = ix3 c m k := fun k =>
    funext fun a => by match a with | ⟨0, _⟩ => rfl | ⟨1, _⟩ => rfl | ⟨2, _⟩ => rfl
  have h8 : ∀ k, idx_main_v8 (idx_main_v9 (idx_main_v12 (ix3 n c m))) k = ix2 n k := fun k =>
    funext fun a => by match a with | ⟨0, _⟩ => rfl | ⟨1, _⟩ => rfl
  have h10 : ∀ k, idx_main_v10 (idx_main_v11 (idx_main_v13 (ix3 n c m))) k = ix3 c m k := fun k =>
    funext fun a => by match a with | ⟨0, _⟩ => rfl | ⟨1, _⟩ => rfl | ⟨2, _⟩ => rfl
  simp only [val_main_v21_apply, val_main_v20_apply, val_main_v7_apply, val_main_v6_apply, val_main_cst_0_apply,
    val_main_v5_apply, val_main_v4_apply, val_main_cst_apply, val_main_v0_apply, val_main_v19_apply,
    val_main_v18_apply, val_main_cst_4_apply, val_main_v17_apply, val_main_v14_apply, val_main_v12_apply,
    val_main_v9_apply, val_main_v8_apply, val_main_cst_1_apply, val_main_v13_apply, val_main_v11_apply,
    val_main_v10_apply, val_main_cst_2_apply, val_main_v16_apply, val_main_v15_apply, val_main_cst_3_apply,
    val_main_v3_apply, val_main_v1_apply, val_main_v2_apply, hl0, hr0, hl3, hr3, h8, h10,
    Ideal.hostNegf_def, Ideal.negf_def, Ideal.addf_def, Ideal.subf_def, Ideal.mulf_def, Ideal.ofBits_def,
    Ideal.hostUnary_sqrt_def, Ideal.ofBits_zero_f32, zero_add]
  rfl

/-- So the reference's result array is the array of negated distances. -/
theorem stage_eq (x0 x1 : (⟨S262144x256, .f32⟩ : BufTy).Contents (Elt Ideal))
    (x2 x3 : (⟨S19x10x256, .f32⟩ : BufTy).Contents (Elt Ideal)) :
    val_main_v21 (F := Ideal) x0 x1 x2 x3 = negDistArr x0 x1 x2 x3 := by
  funext i
  obtain ⟨n, c, m, rfl⟩ : ∃ (n : Fin 262144) (c : Fin 19) (m : Fin 10), i = ix3 n c m := ⟨i 0, i 1, i 2, eq_ix3 i⟩
  exact stage_apply x0 x1 x2 x3 n c m

end Cert.ReferenceIdeal.RefValue

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's stored value, read at one entry (r, j) of the output block: for the block's rows of `x` and of
  the variances, the two resident prototype tables (256 × 190 each) and the resident row of prototype variance
  sums, it is

    0 - ( (2 - 2 · Σ_k x(r,k) · P(k,j)) + (1/256) · ((Σ_k xv(r,k) + s(0,j)) - 2 · Σ_k √xv(r,k) · Q(k,j)) ).

  The two matrix products accumulate into a zero splat, so each is the plain sum over the 256 lanes; the row sum is
  the lane reduction viewed as a column and broadcast along the 190 columns; the changes of float format are the
  identity on the extended reals.
-/
import proofs.«142269_j7799660610230_1_alg».proof.Proof.Gen.KernelIdeal.Skeleton
import proofs.«142269_j7799660610230_1_alg».proof.Proof.NegDist
import proofs.«142269_j7799660610230_1_alg».proof.Proof.LibColumn
import Idealize.ShloMosaic.Lib.ValueLayout
import Idealize.ShloMosaic.PureOps.Ideal.Laws

noncomputable section

open scoped BigOperators

namespace Cert.KernelIdeal.Body

open Cert.KernelIdeal Cert.KernelIdeal.Gen Cert.NegDist
open Idealize.ShloMosaic Idealize.ShloMosaic.ValueIdx

/-- The product's left operand index keeps the output's row … -/
theorem lhs_row (i : S4096x190.Idx) (q : dot_S4096x256_S256x190_S4096x190_1_0_0_1_n_n.contr.Idx) :
    (dot_S4096x256_S256x190_S4096x190_1_0_0_1_n_n.lhsIdx i q 0).val = (i 0).val := by
  unfold DotDims.lhsIdx
  rw [dif_neg (show ¬(0 : Fin S4096x256.rank) ∈ dot_S4096x256_S256x190_S4096x190_1_0_0_1_n_n.lhsBatch by decide),
    dif_pos (show (0 : Fin S4096x256.rank) ∈ dot_S4096x256_S256x190_S4096x190_1_0_0_1_n_n.lhsNonContracting by decide)]
  rfl
/-- … and runs over the contracted lane; -/
theorem lhs_lane (i : S4096x190.Idx) (q : dot_S4096x256_S256x190_S4096x190_1_0_0_1_n_n.contr.Idx) :
    (dot_S4096x256_S256x190_S4096x190_1_0_0_1_n_n.lhsIdx i q 1).val = (q ⟨0, by decide⟩).val :=
  dot_S4096x256_S256x190_S4096x190_1_0_0_1_n_n.lhsIdx_val_of_single rfl i q
/-- the right operand index runs over the contracted lane … -/
theorem rhs_lane (i : S4096x190.Idx) (q : dot_S4096x256_S256x190_S4096x190_1_0_0_1_n_n.contr.Idx) :
    (dot_S4096x256_S256x190_S4096x190_1_0_0_1_n_n.rhsIdx i q 0).val = (q ⟨0, by decide⟩).val :=
  dot_S4096x256_S256x190_S4096x190_1_0_0_1_n_n.rhsIdx_val_of_single rfl i q
/-- … and keeps the output's column. -/
theorem rhs_col (i : S4096x190.Idx) (q : dot_S4096x256_S256x190_S4096x190_1_0_0_1_n_n.contr.Idx) :
    (dot_S4096x256_S256x190_S4096x190_1_0_0_1_n_n.rhsIdx i q 1).val = (i 1).val := by
  unfold DotDims.rhsIdx
  rw [dif_neg (show ¬(1 : Fin S256x190.rank) ∈ dot_S4096x256_S256x190_S4096x190_1_0_0_1_n_n.rhsBatch by decide),
    dif_pos (show (1 : Fin S256x190.rank) ∈ dot_S4096x256_S256x190_S4096x190_1_0_0_1_n_n.rhsNonContracting by decide)]
  rfl

/-- The body's matrix product into the zero splat, at (a, j): the sum over the 256 lanes. -/
theorem matmul_at (l : FVec Ideal S4096x256 .bf16) (r : FVec Ideal S256x190 .bf16) (a : Fin 4096) (j : Fin 190) :
    matmul dot_S4096x256_S256x190_S4096x190_1_0_0_1_n_n none l r (constant (F := Ideal) S4096x190 .f32 0x00000000#32) (ix2 a j)
      = ∑ k : Fin 256, l (ix2 a k) * r (ix2 k j) := by
  simp only [matmul]
  rw [Ideal.matmul_constant_zero_apply,
    ← Equiv.sum_comp (contrEquiv1 dot_S4096x256_S256x190_S4096x190_1_0_0_1_n_n 256 rfl rfl).symm]
  refine Finset.sum_congr rfl fun k _ => ?_
  have hk := contrEquiv1_symm_val dot_S4096x256_S256x190_S4096x190_1_0_0_1_n_n 256 rfl rfl k
  have el : dot_S4096x256_S256x190_S4096x190_1_0_0_1_n_n.lhsIdx (ix2 a j)
      ((contrEquiv1 dot_S4096x256_S256x190_S4096x190_1_0_0_1_n_n 256 rfl rfl).symm k) = ix2 a k :=
    funext fun b => Fin.ext (by
      match b with
      | ⟨0, _⟩ => exact lhs_row _ _
      | ⟨1, _⟩ => exact (lhs_lane _ _).trans hk)
  have er : dot_S4096x256_S256x190_S4096x190_1_0_0_1_n_n.rhsIdx (ix2 a j)
      ((contrEquiv1 dot_S4096x256_S256x190_S4096x190_1_0_0_1_n_n 256 rfl rfl).symm k) = ix2 k j :=
    funext fun b => Fin.ext (by
      match b with
      | ⟨0, _⟩ => exact (rhs_lane _ _).trans hk
      | ⟨1, _⟩ => exact rhs_col _ _)
  rw [el, er]

/-- The body's lane reduction of a block, at row a: the sum of the row. -/
theorem rowsum_at (v : FVec Ideal S4096x256 .f32) (hφ : FKind.Formats .f32)
    (hacc : (0x00000000#32 : BitVec 32) = 0x00000000#32) (a : Fin 4096) :
    multiReduction .add [1] S4096 v 0x00000000#32 reduces_S4096x256_S4096 hφ hacc (ix1 a)
      = ∑ k : Fin 256, v (ix2 a k) := by
  refine (Ideal.multiReduction_add_single v 0x00000000#32 reduces_S4096x256_S4096 hφ hacc (ix1 a)).trans ?_
  exact Finset.sum_congr rfl fun k _ => congrArg v (funext fun b => Fin.ext (by
    match b with
    | ⟨0, _⟩ => rfl
    | ⟨1, _⟩ => rfl))

/-- The body's square root of a block, at an entry. -/
theorem sqrt_at {s : Shape} (v : FVec Ideal s .f32) (i : s.Idx) : sqrt v i = Ideal.sqrt (v i) := rfl

/-- The body's stored value at entry (r, j) of the block. -/
theorem pay_apply (x0 x1 : Vec Ideal S4096x256 .f32) (x2 x3 : Vec Ideal S256x190 .bf16) (x4 : Vec Ideal S1x190 .f32)
    (r : Fin 4096) (j : Fin 190) :
    k0_pay1 (F := Ideal) x0 x1 x2 x3 x4 (ix2 r j)
      = 0 - ((two - two * ∑ k : Fin 256, x0 (ix2 r k) * x2 (ix2 k j))
          + lam * ((∑ k : Fin 256, x1 (ix2 r k) + x4 (ix2 (0 : Fin 1) j))
              - two * ∑ k : Fin 256, Ideal.sqrt (x1 (ix2 r k)) * x3 (ix2 k j))) := by
  simp only [k0_pay1, subf_apply, addf_apply, mulf_apply, broadcast_apply, matmul_at, truncf_apply,
    shapeCast_self, broadcastTo_a1_ab_apply, broadcastTo_1b_ab_apply, shapeCast_a_a1_apply, rowsum_at, sqrt_at,
    Scalar.ofBits, Ideal.ofBits_def, Ideal.ofBits_zero_f32]
  rw [rowsum_at x1 k0_pay1._proof_2 k0_pay1._proof_3 r]

end Cert.KernelIdeal.Body

end
-- ==== Proof.LibFlatten.lean ====
/-
  Two row-major reshapes read at an index given by coordinates.
  • MERGING the two leading axes, [a, b, c] → [n, c] with n = a · b: entry (j, k) of the result is entry
    (j / b, j % b, k) of the operand.
  • SPLITTING the last axis, [n, d] → [n, b, c] with d = b · c: entry (i, p, q) of the result is entry
    (i, p · c + q) of the operand.
  Both are the library's `shapeCast_apply` with the row-major positions written out.
-/
import Idealize.ShloMosaic.Lib.Pipeline.Value
import Idealize.ShloMosaic.Lib.ValueIdx

namespace Idealize.ShloMosaic.ValueIdx

open Idealize.ShloMosaic

variable {α : Type}

/-- `[a, b, c]` viewed as `[n, c]`, `n = a · b`: at `(j, k)` the operand at `(j / b, j % b, k)`. -/
theorem shapeCast_abc_nc_apply {a b c n : ℕ} (hn : n = a * b) (hb : 0 < b) (x : (⟨3, ![a, b, c]⟩ : Shape).Idx → α)
    (h : (⟨3, ![a, b, c]⟩ : Shape).ShapeCasts ⟨2, ![n, c]⟩) (j : Fin n) (k : Fin c) :
    shapeCast ⟨2, ![n, c]⟩ x h (ix2 j k)
      = x (ix3 (⟨j.val / b, Nat.div_lt_of_lt_mul (lt_of_lt_of_eq j.isLt (hn.trans (Nat.mul_comm a b)))⟩ : Fin a)
          (⟨j.val % b, Nat.mod_lt _ hb⟩ : Fin b) k) :=
  shapeCast_apply x h _ _ (by
    rw [Shape.rowMajor_val_three, Shape.rowMajor_val_two]
    show (j.val / b * b + j.val % b) * c + k.val = j.val * c + k.val
    rw [Nat.div_add_mod'])

/-- `[n, d]` viewed as `[n, b, c]`, `d = b · c`: at `(i, p, q)` the operand at `(i, p · c + q)`. -/
theorem shapeCast_nd_nbc_apply {n b c d : ℕ} (hd : d = b * c) (x : (⟨2, ![n, d]⟩ : Shape).Idx → α)
    (h : (⟨2, ![n, d]⟩ : Shape).ShapeCasts ⟨3, ![n, b, c]⟩) (i : Fin n) (p : Fin b) (q : Fin c) :
    shapeCast ⟨3, ![n, b, c]⟩ x h (ix3 i p q)
      = x (ix2 i (⟨p.val * c + q.val, by
            rw [hd]
            calc p.val * c + q.val < p.val * c + c := Nat.add_lt_add_left q.isLt _
              _ = (p.val + 1) * c := by rw [Nat.add_mul, Nat.one_mul]
              _ ≤ b * c := Nat.mul_le_mul_right c p.isLt⟩ : Fin d)) :=
  shapeCast_apply x h _ _ (by
    rw [Shape.rowMajor_val_three, Shape.rowMajor_val_two]
    show i.val * d + (p.val * c + q.val) = (i.val * b + p.val) * c + q.val
    rw [hd, Nat.add_mul, Nat.mul_assoc, Nat.add_assoc])

end Idealize.ShloMosaic.ValueIdx
-- ==== Proof.Tables.lean ====
/-
  What the region finds in its three resident operands, as functions of the launch contents of the two prototype
  arrays. Each is a short chain of host operations on a [19, 10, 256] array `a` read flat as [190, 256] (row `j` is
  prototype `(j / 10, j % 10)`):
  • the means table: the flat array transposed, so entry (k, j) is `p (j / 10, j % 10, k)`;
  • the square-root table: the square root of the flat variances, transposed, so entry (k, j) is `√pv (j / 10, j % 10, k)`;
  • the row of variance sums: the flat variances summed along their 256 lanes from the word of zero, viewed as one row,
    so entry (0, j) is `Σ_k pv (j / 10, j % 10, k)`.
  The changes of float format in between are the identity on the extended reals.
-/
import proofs.«142269_j7799660610230_1_alg».proof.Proof.Gen.KernelIdeal.Frame
import proofs.«142269_j7799660610230_1_alg».proof.Proof.NegDist
import proofs.«142269_j7799660610230_1_alg».proof.Proof.LibFlatten
import Idealize.ShloMosaic.Lib.StableHlo.Run
import Idealize.ShloMosaic.Lib.ValueLayout
import Idealize.ShloMosaic.PureOps.Ideal.Laws

noncomputable section

open scoped BigOperators

namespace Cert.KernelIdeal.Tables

open Cert.KernelIdeal Cert.KernelIdeal.Gen Cert.NegDist
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The launch contents of the prototype means on core `c`, as a function on [19, 10, 256]. -/
abbrev protoMeans (c : Dev nD) : S19x10x256.Idx → EReal := m ((c : Thread nD τ).loc main_arg2)
/-- The launch contents of the prototype variances on core `c`. -/
abbrev protoVars (c : Dev nD) : S19x10x256.Idx → EReal := m ((c : Thread nD τ).loc main_arg3)

/-- A [19, 10, 256] array read flat, at row `j` and lane `k`. -/
theorem flat_apply (a : S19x10x256.Idx → EReal) (j : Fin 190) (k : Fin 256) :
    shapeCast S190x256 a shapeCasts_S19x10x256_S190x256 (ix2 j k) = a (ix3 (clsOf j) (protoOf j) k) :=
  shapeCast_abc_nc_apply (a := 19) (b := 10) (c := 256) (n := 190) rfl (by decide) a shapeCasts_S19x10x256_S190x256 j k

/-- The flat array's lane sum from the word of zero, at row `j`. -/
theorem flatSum_apply (a : S19x10x256.Idx → EReal) (j : Fin 190) :
    Host.reduceAdd (F := Ideal) (shapeCast S190x256 a shapeCasts_S19x10x256_S190x256) (constant (F := Ideal) S_ .f32 0x00000000#32)
        reducesTo_S190x256_S190_d1 h_S_ (ix1 j)
      = ∑ k : Fin 256, a (ix3 (clsOf j) (protoOf j) k) := by
  simp only [Host.reduceAdd, Ideal.hostReduceAdd_def]
  rw [Ideal.hostReduceAdd_single reducesTo_S190x256_S190_d1 (by decide)]
  show Ideal.ofBits .f32 0x00000000#32 + _ = _
  rw [Ideal.ofBits_zero_f32, zero_add]
  refine Finset.sum_congr rfl fun k _ => ?_
  refine Eq.trans (congrArg _ (funext fun b => Fin.ext (by
    match b with
    | ⟨0, _⟩ => rfl
    | ⟨1, _⟩ => rfl))) (flat_apply a j k)

/-- The means table the region finds. -/
theorem means (c : Dev nD) (k : Fin 256) (j : Fin 190) :
    (V m c main_v2 : S256x190.Idx → EReal) (ix2 k j)
      = protoMeans m c (ix3 (clsOf j) (protoOf j) k) := by
  have e : (V m c main_v2 : S256x190.Idx → EReal)
      = truncf (F := Ideal) .bf16 (transpose S256x190 [1, 0]
          (shapeCast S190x256 (protoMeans m c) shapeCasts_S19x10x256_S190x256)
          transposes_S190x256_S256x190_1_0) bitsLt_bf16_f32 := by
    show StableHlo.after hostOps0 (fun b => m (c, b)) (Proc.devRef .tc main_v2) = _
    after_results
    rfl
  rw [e, truncf_apply, transpose_ix2_apply, flat_apply]

/-- The square-root table the region finds. -/
theorem roots (c : Dev nD) (k : Fin 256) (j : Fin 190) :
    (V m c main_v6 : S256x190.Idx → EReal) (ix2 k j)
      = Ideal.sqrt (protoVars m c (ix3 (clsOf j) (protoOf j) k)) := by
  have e : (V m c main_v6 : S256x190.Idx → EReal)
      = truncf (F := Ideal) .bf16 (transpose S256x190 [1, 0]
          (Host.sqrt (F := Ideal) (shapeCast S190x256 (protoVars m c) shapeCasts_S19x10x256_S190x256))
          transposes_S190x256_S256x190_1_0) bitsLt_bf16_f32 := by
    show StableHlo.after hostOps0 (fun b => m (c, b)) (Proc.devRef .tc main_v6) = _
    after_results
    rfl
  rw [e, truncf_apply, transpose_ix2_apply]
  show Ideal.sqrt (shapeCast S190x256 (protoVars m c) shapeCasts_S19x10x256_S190x256 (ix2 j k)) = _
  rw [flat_apply]

/-- The row of variance sums the region finds. -/
theorem sums (c : Dev nD) (j : Fin 190) :
    (V m c main_v9 : S1x190.Idx → EReal) (ix2 (0 : Fin 1) j)
      = ∑ k : Fin 256, protoVars m c (ix3 (clsOf j) (protoOf j) k) := by
  have e : (V m c main_v9 : S1x190.Idx → EReal)
      = shapeCast S1x190 (Host.reduceAdd (F := Ideal)
          (shapeCast S190x256 (protoVars m c) shapeCasts_S19x10x256_S190x256)
          (constant (F := Ideal) S_ .f32 0x00000000#32) reducesTo_S190x256_S190_d1 h_S_) shapeCasts_S190_S1x190 := by
    show StableHlo.after hostOps0 (fun b => m (c, b)) (Proc.devRef .tc main_v9) = _
    after_results
    rfl
  rw [e, shapeCast_a_1a_apply, flatSum_apply]

end Cert.KernelIdeal.Tables

end
-- ==== Proof.Blocks.lean ====
/-
  From blocks to the array. Grid point `t` (64 of them) works on rows 4096·t … 4096·t + 4095: it is handed those
  rows of `x` and of the variances, and the three resident operands whole, and writes back those rows of the
  [262144, 190] output. What it writes back is its block of ONE function of the five staged arrays (`blockArr`),
  the 64 blocks tile the output, so the output array ends at that function; and with the resident operands read as
  the tables they are, that function is the array of negated distances with the prototypes laid flat.
-/
import proofs.«142269_j7799660610230_1_alg».proof.Proof.Gen.KernelIdeal.Frame
import proofs.«142269_j7799660610230_1_alg».proof.Proof.Payload
import proofs.«142269_j7799660610230_1_alg».proof.Proof.Tables
import Idealize.ShloMosaic.Lib.Pipeline.Value

noncomputable section

open scoped BigOperators

namespace Cert.KernelIdeal.Blocks

open Cert.KernelIdeal Cert.KernelIdeal.Gen Cert.NegDist
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- One entry of the output as a function of the five staged arrays: row `n` of the two point arrays, column `j` of
    the two tables and of the row of sums. -/
def cell (A0 A1 : S262144x256.Idx → EReal) (T R : S256x190.Idx → EReal) (s : S1x190.Idx → EReal)
    (n : Fin 262144) (j : Fin 190) : EReal :=
  0 - ((two - two * ∑ k : Fin 256, A0 (ix2 n k) * T (ix2 k j))
    + lam * ((∑ k : Fin 256, A1 (ix2 n k) + s (ix2 (0 : Fin 1) j))
        - two * ∑ k : Fin 256, Ideal.sqrt (A1 (ix2 n k)) * R (ix2 k j)))

/-- The whole output array as that function. -/
def blockArr (A0 A1 : S262144x256.Idx → EReal) (T R : S256x190.Idx → EReal) (s : S1x190.Idx → EReal) :
    S262144x190.Idx → EReal :=
  fun i => cell A0 A1 T R s (i 0) (i 1)

/-- The body's stored value at entry (r, j) of a block is the cell at (n, j') whenever the blocks it was handed are,
    along row r and column j, the arrays' row n and column j'. -/
theorem cell_of_blocks (A0 A1 : S262144x256.Idx → EReal) (T R : S256x190.Idx → EReal) (s : S1x190.Idx → EReal)
    (x0 x1 : Vec Ideal S4096x256 .f32) (x2 x3 : Vec Ideal S256x190 .bf16) (x4 : Vec Ideal S1x190 .f32)
    (r : Fin 4096) (j : Fin 190) (n : Fin 262144) (j' : Fin 190)
    (h0 : ∀ k : Fin 256, x0 (ix2 r k) = A0 (ix2 n k)) (h1 : ∀ k : Fin 256, x1 (ix2 r k) = A1 (ix2 n k))
    (h2 : ∀ k : Fin 256, x2 (ix2 k j) = T (ix2 k j')) (h3 : ∀ k : Fin 256, x3 (ix2 k j) = R (ix2 k j'))
    (h4 : x4 (ix2 (0 : Fin 1) j) = s (ix2 (0 : Fin 1) j')) :
    k0_pay1 (F := Ideal) x0 x1 x2 x3 x4 (ix2 r j) = cell A0 A1 T R s n j' := by
  rw [Body.pay_apply]
  simp only [h0, h1, h2, h3, h4]
  rfl

theorem zero_offsets : (![0, 0] : Fin 2 → Nat) = fun _ => 0 := funext fun a => by fin_cases a <;> rfl

/-- The printed index maps, decided over the 64 grid points: the two point windows move with the output along the
    rows, at block index `t`; nothing moves along the columns; the three resident windows never move. -/
theorem index_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT `t` WRITES BACK is block `t` of `blockArr` of the arrays as the region finds them. -/
theorem flushed_eq (c : Dev nD) (t : Fin cfg0.N) :
    (dats m 0 c).flushed 5 t = ((cfg0.win 5).blk t).view.read (Elt Ideal)
      (blockArr (V m c main_arg0) (V m c main_arg1) (V m c main_v2) (V m c main_v6) (V m c main_v9)) := by
  show (cfg0.win 5).cut (grid0.coords t) ((dats m 0 c).after 5 t) = _
  rw [after0_5]
  unfold out0_5
  rw [View.canon_unit_zero zero_offsets]
  simp only [View.ld_unit_zero (S := S4096x256) zero_offsets, View.ld_unit_zero (S := S256x190) zero_offsets,
    View.ld_unit_zero (S := S1x190) zero_offsets]
  obtain ⟨e50, e51, e00, e01, e10, e11, e20, e21, e30, e31, e40, e41⟩ := index_facts t
  funext y
  show k0_pay1 (F := Ideal) (iblk m c 0 t) (iblk m c 1 t) (iblk m c 2 t) (iblk m c 3 t) (iblk m c 4 t) y
    = cell (V m c main_arg0) (V m c main_arg1) (V m c main_v2) (V m c main_v6) (V m c main_v9)
        ((((cfg0.win 5).blk t).view.emb y) 0) ((((cfg0.win 5).blk t).view.emb y) 1)
  refine (congrArg (k0_pay1 (F := Ideal) (iblk m c 0 t) (iblk m c 1 t) (iblk m c 2 t) (iblk m c 3 t) (iblk m c 4 t))
    (eq_ix2 (n0 := 4096) (n1 := 190) y)).trans ?_
  refine cell_of_blocks (V m c main_arg0) (V m c main_arg1) (V m c main_v2) (V m c main_v6) (V m c main_v9)
    (iblk m c 0 t) (iblk m c 1 t) (iblk m c 2 t) (iblk m c 3 t) (iblk m c 4 t) (y 0) (y 1)
    ((((cfg0.win 5).blk t).view.emb y) 0) ((((cfg0.win 5).blk t).view.emb y) 1) ?_ ?_ ?_ ?_ ?_
  · intro k
    show V m c main_arg0 (((cfg0.win 0).blk t).view.emb (ix2 (y 0) k)) = V m c main_arg0 (ix2 ((((cfg0.win 5).blk t).view.emb y) 0) k)
    refine congrArg _ (funext fun a => Fin.ext ?_)
    match a with
    | ⟨0, _⟩ => show win0_0.index t (0 : Fin 2) * 4096 + 1 * (y 0).val = win0_5.index t (0 : Fin 2) * 4096 + 1 * (y 0).val; rw [e00, e50]
    | ⟨1, _⟩ => show win0_0.index t (1 : Fin 2) * 256 + 1 * k.val = k.val; rw [e01]; omega
  · intro k
    show V m c main_arg1 (((cfg0.win 1).blk t).view.emb (ix2 (y 0) k)) = V m c main_arg1 (ix2 ((((cfg0.win 5).blk t).view.emb y) 0) k)
    refine congrArg _ (funext fun a => Fin.ext ?_)
    match a with
    | ⟨0, _⟩ => show win0_1.index t (0 : Fin 2) * 4096 + 1 * (y 0).val = win0_5.index t (0 : Fin 2) * 4096 + 1 * (y 0).val; rw [e10, e50]
    | ⟨1, _⟩ => show win0_1.index t (1 : Fin 2) * 256 + 1 * k.val = k.val; rw [e11]; omega
  · intro k
    show V m c main_v2 (((cfg0.win 2).blk t).view.emb (ix2 k (y 1))) = V m c main_v2 (ix2 k ((((cfg0.win 5).blk t).view.emb y) 1))
    refine congrArg _ (funext fun a => Fin.ext ?_)
    match a with
    | ⟨0, _⟩ => show win0_2.index t (0 : Fin 2) * 256 + 1 * k.val = k.val; rw [e20]; omega
    | ⟨1, _⟩ => show win0_2.index t (1 : Fin 2) * 190 + 1 * (y 1).val = win0_5.index t (1 : Fin 2) * 190 + 1 * (y 1).val; rw [e21, e51]
  · intro k
    show V m c main_v6 (((cfg0.win 3).blk t).view.emb (ix2 k (y 1))) = V m c main_v6 (ix2 k ((((cfg0.win 5).blk t).view.emb y) 1))
    refine congrArg _ (funext fun a => Fin.ext ?_)
    match a with
    | ⟨0, _⟩ => show win0_3.index t (0 : Fin 2) * 256 + 1 * k.val = k.val; rw [e30]; omega
    | ⟨1, _⟩ => show win0_3.index t (1 : Fin 2) * 190 + 1 * (y 1).val = win0_5.index t (1 : Fin 2) * 190 + 1 * (y 1).val; rw [e31, e51]
  · show V m c main_v9 (((cfg0.win 4).blk t).view.emb (ix2 (0 : Fin 1) (y 1))) = V m c main_v9 (ix2 (0 : Fin 1) ((((cfg0.win 5).blk t).view.emb y) 1))
    refine congrArg _ (funext fun a => Fin.ext ?_)
    match a with
    | ⟨0, _⟩ => show win0_4.index t (0 : Fin 2) * 1 + 1 * 0 = 0; rw [e40]
    | ⟨1, _⟩ => show win0_4.index t (1 : Fin 2) * 190 + 1 * (y 1).val = win0_5.index t (1 : Fin 2) * 190 + 1 * (y 1).val; rw [e41, e51]

/-- An index of the output is in point `t`'s block iff each coordinate is in the block's range on its axis. -/
theorem mem_blk (t : Fin cfg0.N) (i : S262144x190.Idx) :
    i ∈ ((cfg0.win 5).blk t).view.set ↔ ∀ a : Fin 2, win0_5.index t a * S4096x190.size a ≤ (i a).val
      ∧ (i a).val < win0_5.index t a * S4096x190.size a + S4096x190.size a := by
  show i ∈ ((View.whole main_v10).slice (win0_5.rect t)).set ↔ _
  rw [View.set_slice_whole, Rect.mem_set_unit]
  exact Iff.rfl

/-- Every row is in the block of the point `row / 4096`: the 64 blocks tile the output. -/
theorem cover (i : S262144x190.Idx) :
    ∃ t : Fin cfg0.N, (cfg0.win 5).flush t = true ∧ i ∈ ((cfg0.win 5).blk t).view.set := by
  have hi0 : (i 0).val < 262144 := (i 0).isLt
  have hi1 : (i 1).val < 190 := (i 1).isLt
  have hN : grid0.N = 64 := N_0
  have ht : (i 0).val / 4096 < cfg0.N := by show (i 0).val / 4096 < grid0.N; omega
  refine ⟨⟨(i 0).val / 4096, ht⟩, flush0_5 _, ?_⟩
  rw [mem_blk]
  obtain ⟨e50, e51, -⟩ := index_facts ⟨(i 0).val / 4096, ht⟩
  intro a
  match a with
  | ⟨0, _⟩ =>
    show win0_5.index ⟨(i 0).val / 4096, ht⟩ (0 : Fin 2) * 4096 ≤ (i 0).val
      ∧ (i 0).val < win0_5.index ⟨(i 0).val / 4096, ht⟩ (0 : Fin 2) * 4096 + 4096
    rw [e50]
    show (i 0).val / 4096 * 4096 ≤ (i 0).val ∧ (i 0).val < (i 0).val / 4096 * 4096 + 4096
    omega
  | ⟨1, _⟩ =>
    show win0_5.index ⟨(i 0).val / 4096, ht⟩ (1 : Fin 2) * 190 ≤ (i 1).val
      ∧ (i 1).val < win0_5.index ⟨(i 0).val / 4096, ht⟩ (1 : Fin 2) * 190 + 190
    rw [e51]
    omega

/-- THE OUTPUT ARRAY after the region: `blockArr` of the arrays as the region finds them. -/
theorem final (c : Dev nD) : (dats m 0 c).arrAt 5 cfg0.N
    = blockArr (V m c main_arg0) (V m c main_arg1) (V m c main_v2) (V m c main_v6) (V m c main_v9) :=
  (dats m 0 c).arrAt_eq_of_cover 5 _ (fun t _ => flushed_eq m c t) cover

/-- With the two point arrays as launched and the three resident operands read as the tables they are, that function
    is the flat array of negated distances: the zero the body subtracts from is the negation. -/
theorem blockArr_eq (c : Dev nD) :
    blockArr (V m c main_arg0) (V m c main_arg1) (V m c main_v2) (V m c main_v6) (V m c main_v9)
      = negDistFlat (m ((c : Thread nD τ).loc main_arg0)) (m ((c : Thread nD τ).loc main_arg1))
          (m ((c : Thread nD τ).loc main_arg2)) (m ((c : Thread nD τ).loc main_arg3)) := by
  funext i
  obtain ⟨n, j, rfl⟩ : ∃ (n : Fin 262144) (j : Fin 190), i = ix2 n j := ⟨i 0, i 1, eq_ix2 i⟩
  show cell (V m c main_arg0) (V m c main_arg1) (V m c main_v2) (V m c main_v6) (V m c main_v9) n j
    = negDist _ _ _ _ n (clsOf j) (protoOf j)
  unfold cell negDist NegDist.inner rowSum protoSum cross
  rw [V_main_arg0, V_main_arg1]
  simp only [Tables.means m c, Tables.roots m c, Tables.sums m c]
  exact zero_sub _

/-- So the output array after the region is the flat array of negated distances of the launch contents. -/
theorem final_flat (c : Dev nD) : (dats m 0 c).arrAt 5 cfg0.N
    = negDistFlat (m ((c : Thread nD τ).loc main_arg0)) (m ((c : Thread nD τ).loc main_arg1))
        (m ((c : Thread nD τ).loc main_arg2)) (m ((c : Thread nD τ).loc main_arg3)) :=
  (final m c).trans (blockArr_eq m c)

end Cert.KernelIdeal.Blocks

end
-- ==== Proof.KernelRun.lean ====
/-
  The kernel program's run, read: after the region the [262144, 190] output is viewed as [262144, 19, 10] — entry
  (n, c, m) is the flat entry (n, 10 c + m), whose column names prototype (c, m) — so the result array is the array
  of negated distances of the launch contents, and the four argument arrays end as launched.
-/
import proofs.«142269_j7799660610230_1_alg».proof.Proof.Gen.KernelIdeal.Frame
import proofs.«142269_j7799660610230_1_alg».proof.Proof.Blocks
import proofs.«142269_j7799660610230_1_alg».proof.Proof.LibFlatten
import Idealize.ShloMosaic.Lib.StableHlo.Run

noncomputable section

namespace Cert.KernelIdeal.Result

open Cert.KernelIdeal Cert.KernelIdeal.Gen Cert.NegDist
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The flat array of negated distances viewed as [262144, 19, 10] is the array of negated distances. -/
theorem unflatten (x xv : (⟨2, ![262144, 256]⟩ : Shape).Idx → EReal) (p pv : (⟨3, ![19, 10, 256]⟩ : Shape).Idx → EReal) :
    shapeCast S262144x19x10 (negDistFlat x xv p pv) shapeCasts_S262144x190_S262144x19x10 = negDistArr x xv p pv := by
  funext i
  obtain ⟨n, c, k, rfl⟩ : ∃ (n : Fin 262144) (c : Fin 19) (k : Fin 10), i = ix3 n c k := ⟨i 0, i 1, i 2, eq_ix3 i⟩
  refine (shapeCast_nd_nbc_apply (n := 262144) (b := 19) (c := 10) (d := 190) rfl (negDistFlat x xv p pv)
    shapeCasts_S262144x190_S262144x19x10 n c k).trans ?_
  show negDist x xv p pv n (clsOf (colOf c k)) (protoOf (colOf c k)) = negDist x xv p pv n c k
  rw [clsOf_colOf, protoOf_colOf]

/-- What the lines after the region leave in the result buffer. -/
theorem result_eq (c : Dev nD) :
    Pipeline.afterTail₀ cfgs (dats m) 0 (V0 m) [hostOps1] c main_v11
      = negDistArr (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v11) = _
  after_results
  have hw : Pipeline.withArrays spec0 c (V0 m c) (fun w => (dats m 0 c).arrAt w cfg0.N) (Proc.devRef .tc main_v10)
      = negDistFlat (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 5).trans (Blocks.final_flat m c)
  refine Eq.trans ?_ (unflatten _ _ _ _)
  exact congrArg (fun a => shapeCast S262144x19x10 a shapeCasts_S262144x190_S262144x19x10) hw

/-- THE KERNEL PROGRAM'S RUN: every weakly fair execution terminates with the result array at the negated distances
    of the launch contents and the four arguments as launched. -/
theorem run : θ_run defs (onTc (τ := τ) (main (F := Ideal))) ⟨m, fun _ => 0, ρ⟩ fun r => ∀ c : Dev nD,
      r.2.mem ((c.tc : Thread nD τ).loc main_v11)
        = negDistArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The kernel and its reference compute, for every point n of 262144 and every prototype (c, m) of 19 × 10, the
  negated distance

    -( (2 - 2 · ⟨x_n, p_cm⟩) + (1/256) · ((Σ_k xv_n,k + Σ_k pv_cm,k) - 2 · Σ_k √xv_n,k · √pv_cm,k) )

  on the extended reals (Proof/NegDist.lean).

  The reference contracts the last axes of the point arrays and of the [19, 10, 256] prototype arrays directly
  (Proof/RefNegDist.lean, over its generated run read one operation at a time).

  The kernel first lays the prototypes flat, column 10 c + m for prototype (c, m), and transposes them into two
  resident 256 × 190 tables (the means, and the square roots of the variances) and one resident row of variance
  sums (Proof/Tables.lean); then, on each of 64 blocks of 4096 rows, forms two matrix products against the tables
  and a row sum (Proof/Payload.lean); the 64 blocks tile the [262144, 190] output, which therefore ends at one
  function of the staged arrays (Proof/Blocks.lean); a last reshape to [262144, 19, 10] undoes the flattening
  (Proof/KernelRun.lean).

  Both sides are the same expression with the same words for 2 and 1/256; the only laws used between them are that
  the word of zero is 0, that 0 + s = s and that 0 - w = -w, none of which needs the inputs finite, so the
  precondition is never opened. The changes of float format on the way into the matrix products are the identity on
  the extended reals, and the idealization rewrote nothing, so `preserves` is trivial.
-/
import proofs.«142269_j7799660610230_1_alg».proof.Defs
import proofs.«142269_j7799660610230_1_alg».proof.Proof.Gen.Kernel
import proofs.«142269_j7799660610230_1_alg».proof.Proof.Gen.Kernel.Skeleton
import proofs.«142269_j7799660610230_1_alg».proof.Proof.Gen.Kernel.Launch
import proofs.«142269_j7799660610230_1_alg».proof.Proof.Gen.Kernel.Points
import proofs.«142269_j7799660610230_1_alg».proof.Proof.Gen.Kernel.Frame
import proofs.«142269_j7799660610230_1_alg».proof.Proof.Gen.KernelIdeal
import proofs.«142269_j7799660610230_1_alg».proof.Proof.Gen.KernelIdeal.Skeleton
import proofs.«142269_j7799660610230_1_alg».proof.Proof.Gen.KernelIdeal.Launch
import proofs.«142269_j7799660610230_1_alg».proof.Proof.Gen.KernelIdeal.Points
import proofs.«142269_j7799660610230_1_alg».proof.Proof.Gen.KernelIdeal.Frame
import proofs.«142269_j7799660610230_1_alg».proof.Proof.Gen.ReferenceIdeal
import proofs.«142269_j7799660610230_1_alg».proof.Proof.Gen.Pre_finite_inputs
import proofs.«142269_j7799660610230_1_alg».proof.Proof.Gen.ReferenceIdeal.Run
import proofs.«142269_j7799660610230_1_alg».proof.Proof.Gen.ReferenceIdeal.Read
import proofs.«142269_j7799660610230_1_alg».proof.Proof.RefNegDist
import proofs.«142269_j7799660610230_1_alg».proof.Proof.KernelRun
import Idealize.ShloMosaic.Adequacy
import Idealize.ShloMosaic.Init

noncomputable section

namespace Cert.Proof

open Idealize.ShloMosaic Idealize.ShloMosaic.TcCoe Idealize.SL.Sem Cert.NegDist

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the
    array of negated distances of those arguments. -/
theorem algebraic : Cert.algebraic_KernelIdeal_ReferenceIdeal := by
  intro m ρ m' ρ' _ hagree
  refine ⟨fun c => negDistArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
